-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S2x1600000 : Shape := ⟨2, ![2, 1600000]⟩
abbrev S128x7 : Shape := ⟨2, ![128, 7]⟩
abbrev S128 : Shape := ⟨1, ![128]⟩
abbrev S128x128 : Shape := ⟨2, ![128, 128]⟩
abbrev S_ : Shape := ⟨0, ![]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S128x7 : S_.BroadcastsInDim S128x7 (![] : Fin 0 → Fin S128x7.rank)
  reducesTo_S128x7_S_d0_1 : S128x7.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x7 1) : IVec S_ 1 :=
  let main_c_5 : IVec S_ 1 := constantI S_ 1 1#1
  let main_v17 : IVec S_ 1 := (fun x v => Host.reduce IntOp.andi x v reducesTo_S128x7_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x7 .f32) (main_arg1 : IVec S2x1600000 32) (main_arg2 : FVec F S128x7 .f32) (main_arg3 : FVec F S128 .f32) (main_arg4 : FVec F S128x7 .f32) (main_arg5 : FVec F S128x128 .f32) (main_arg6 : FVec F S128 .f32) (main_arg7 : FVec F S128x128 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S128x7 .f32 := Host.absf main_arg2
  let main_cst_0 : FVec F S_ .f32 := constant S_ .f32 0x7F800000#32
  let main_v5 : FVec F S128x7 .f32 := broadcastInDim S128x7 ![] bcast_S_S128x7 main_cst_0
  let main_v6 : IVec S128x7 1 := cmpf .olt main_v4 main_v5
  let main_c_1 : IVec S_ 1 := constantI S_ 1 1#1
  let main_v7 : IVec S_ 1 := (fun x v => Host.reduce IntOp.andi x v reducesTo_S128x7_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x7 .f32 := Host.absf main_arg4
  let main_cst_4 : FVec F S_ .f32 := constant S_ .f32 0x7F800000#32
  let main_v15 : FVec F S128x7 .f32 := broadcastInDim S128x7 ![] bcast_S_S128x7 main_cst_4
  let main_v16 : IVec S128x7 1 := cmpf .olt main_v14 main_v15
  fn_part1 (F := F) main_arg5 main_arg6 main_arg7 main_v13 main_v16
-- ==== Kernel.lean ====
abbrev S100000x7 : Shape := ⟨2, ![100000, 7]⟩
abbrev S2x1600000 : Shape := ⟨2, ![2, 1600000]⟩
abbrev S128x7 : Shape := ⟨2, ![128, 7]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x7 : Shape := ⟨2, ![1600000, 7]⟩
abbrev S100000x1 : Shape := ⟨2, ![100000, 1]⟩
abbrev S7x128 : Shape := ⟨2, ![7, 128]⟩
abbrev S1x128 : Shape := ⟨2, ![1, 128]⟩
abbrev S100000x128 : Shape := ⟨2, ![100000, 128]⟩
abbrev S2000x7 : Shape := ⟨2, ![2000, 7]⟩
abbrev S2000x128 : Shape := ⟨2, ![2000, 128]⟩
abbrev S1600000x128 : Shape := ⟨2, ![1600000, 128]⟩

abbrev nBuf : Space → Nat
  | .hbm => 72
  | .vmem => 18
  | .smem => 0
  | _ => 0

abbrev bufTy : (tb : Table) → Fin (tcTables nBuf tb) → BufTy
  | .hbm, ⟨0, _⟩ => ⟨S100000x7, .f32⟩
  | .hbm, ⟨1, _⟩ => ⟨S2x1600000, .i32⟩
  | .hbm, ⟨2, _⟩ => ⟨S128x7, .f32⟩
  | .hbm, ⟨3, _⟩ => ⟨S128, .f32⟩
  | .hbm, ⟨4, _⟩ => ⟨S128x7, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x7, .f32⟩
  | .hbm, ⟨27, _⟩ => ⟨S_, .f32⟩
  | .hbm, ⟨28, _⟩ => ⟨S100000x7, .f32⟩
  | .hbm, ⟨29, _⟩ => ⟨S1600000x1, .i32⟩
  | .hbm, ⟨30, _⟩ => ⟨S100000x7, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x7, .f32⟩
  | .hbm, ⟨36, _⟩ => ⟨S100000x7, .f32⟩
  | .hbm, ⟨37, _⟩ => ⟨S7x128, .f32⟩
  | .hbm, ⟨38, _⟩ => ⟨S7x128, .bf16⟩
  | .hbm, ⟨39, _⟩ => ⟨S7x128, .f32⟩
  | .hbm, ⟨40, _⟩ => ⟨S7x128, .bf16⟩
  | .hbm, ⟨41, _⟩ => ⟨S1x128, .f32⟩
  | .hbm, ⟨42, _⟩ => ⟨S100000x7, .bf16⟩
  | .hbm, ⟨43, _⟩ => ⟨S100000x7, .bf16⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S128x128, .f32⟩
  | .hbm, ⟨65, _⟩ => ⟨S128x128, .bf16⟩
  | .hbm, ⟨66, _⟩ => ⟨S128x128, .f32⟩
  | .hbm, ⟨67, _⟩ => ⟨S128x128, .bf16⟩
  | .hbm, ⟨68, _⟩ => ⟨S1x128, .f32⟩
  | .hbm, ⟨69, _⟩ => ⟨S100000x128, .bf16⟩
  | .hbm, ⟨70, _⟩ => ⟨S100000x128, .bf16⟩
  | .hbm, ⟨71, _⟩ => ⟨S100000x128, .f32⟩
  | .local _ .vmem, ⟨0, _⟩ => ⟨S2000x7, .bf16⟩
  | .local _ .vmem, ⟨1, _⟩ => ⟨S2000x7, .bf16⟩
  | .local _ .vmem, ⟨2, _⟩ => ⟨S2000x7, .bf16⟩
  | .local _ .vmem, ⟨3, _⟩ => ⟨S2000x7, .bf16⟩
  | .local _ .vmem, ⟨4, _⟩ => ⟨S7x128, .bf16⟩
  | .local _ .vmem, ⟨5, _⟩ => ⟨S7x128, .bf16⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .bf16⟩
  | .local _ .vmem, ⟨10, _⟩ => ⟨S2000x128, .bf16⟩
  | .local _ .vmem, ⟨11, _⟩ => ⟨S2000x128, .bf16⟩
  | .local _ .vmem, ⟨12, _⟩ => ⟨S2000x128, .bf16⟩
  | .local _ .vmem, ⟨13, _⟩ => ⟨S128x128, .bf16⟩
  | .local _ .vmem, ⟨14, _⟩ => ⟨S128x128, .bf16⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x7 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x7 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x7 : S_.BroadcastsInDim S100000x7 (![] : Fin 0 → Fin S100000x7.rank)
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  transposes_S128x7_S7x128_1_0 : S128x7.Transposes [1, 0] S7x128
  bitsLt_bf16_f32 : FTy.bits .bf16 < FTy.bits .f32
  shapeCasts_S128_S1x128 : S128.ShapeCasts S1x128
  inb_S2000x7_S2000x7_0_0 : ∀ a, (![0, 0] : Fin 2 → Nat) a + S2000x7.size a ≤ S2000x7.size a
  h_S2000x7 : 0 < S2000x7.numel
  shapeCasts_S2000x7_S2000x7 : S2000x7.ShapeCasts S2000x7
  inb_S7x128_S7x128_0_0 : ∀ a, (![0, 0] : Fin 2 → Nat) a + S7x128.size a ≤ S7x128.size a
  h_S7x128 : 0 < S7x128.numel
  shapeCasts_S7x128_S7x128 : S7x128.ShapeCasts S7x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S100000_S1600000x1_S1600000_n_0_0_1_wf : ScatterDims.WF S100000 S1600000x1 S1600000 [] [0] [0] 1
  gather_S100000x7_S1600000x1_S1600000x7_1_0_n_n_0_1_17_wf : GatherDims.WF S100000x7 S1600000x1 S1600000x7 [1] [0] [] [0] [] 1 ![1, 7]
  scatter_S100000x7_S1600000x1_S1600000x7_1_0_0_1_wf : ScatterDims.WF S100000x7 S1600000x1 S1600000x7 [1] [0] [0] 1
  dot_S2000x7_S7x128_S2000x128_1_0_0_1_n_n_wf : DotDims.WF S2000x7 S7x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x7.size a ≤ S100000x7.size a
  hwx0_0 : ∀ i : grid0.Coords, EltTy.bits .bf16 = 32 ∨ (Rect.block (s := S100000x7) S2000x7.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x7.size a ≤ S100000x7.size a
  hwx0_1 : ∀ i : grid0.Coords, EltTy.bits .bf16 = 32 ∨ (Rect.block (s := S100000x7) S2000x7.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x128.size a ≤ S7x128.size a
  hwx0_2 : ∀ i : grid0.Coords, EltTy.bits .bf16 = 32 ∨ (Rect.block (s := S7x128) S7x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x128.size a ≤ S7x128.size a
  hwx0_3 : ∀ i : grid0.Coords, EltTy.bits .bf16 = 32 ∨ (Rect.block (s := S7x128) S7x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .bf16 = 32 ∨ (Rect.block (s := S100000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .bf16 = 32 ∨ (Rect.block (s := S100000x128) S2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x7_S1600000x1_S1600000x7_1_0_n_n_0_1_17 : GatherDims S100000x7 S1600000x1 S1600000x7 where
  offsetDims := [1]
  collapsedSliceDims := [0]
  operandBatchingDims := []
  startIndicesBatchingDims := []
  startIndexMap := [0]
  indexVectorDim := 1
  sliceSizes := ![1, 7]
  wf := gather_S100000x7_S1600000x1_S1600000x7_1_0_n_n_0_1_17_wf
def scatter_S100000x7_S1600000x1_S1600000x7_1_0_0_1 : ScatterDims S100000x7 S1600000x1 S1600000x7 where
  updateWindowDims := [1]
  insertedWindowDims := [0]
  scatterDimsToOperandDims := [0]
  indexVectorDim := 1
  wf := scatter_S100000x7_S1600000x1_S1600000x7_1_0_0_1_wf
def dot_S2000x7_S7x128_S2000x128_1_0_0_1_n_n : DotDims S2000x7 S7x128 S2000x128 where
  lhsContracting := [1]
  rhsContracting := [0]
  lhsNonContracting := [0]
  rhsNonContracting := [1]
  lhsBatch := []
  rhsBatch := []
  wf := dot_S2000x7_S7x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v28) S2000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S2000x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S7x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S7x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v51) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x7 : Shape := ⟨2, ![100000, 7]⟩
abbrev S2x1600000 : Shape := ⟨2, ![2, 1600000]⟩
abbrev S128x7 : Shape := ⟨2, ![128, 7]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x7 : Shape := ⟨2, ![1600000, 7]⟩
abbrev S100000 : Shape := ⟨1, ![100000]⟩
abbrev S100000x1 : Shape := ⟨2, ![100000, 1]⟩
abbrev S7x128 : Shape := ⟨2, ![7, 128]⟩
abbrev S100000x128 : Shape := ⟨2, ![100000, 128]⟩
abbrev S1x128 : Shape := ⟨2, ![1, 128]⟩
abbrev S1600000x128 : Shape := ⟨2, ![1600000, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x7, .f32⟩
  | .hbm, ⟨1, _⟩ => ⟨S2x1600000, .i32⟩
  | .hbm, ⟨2, _⟩ => ⟨S128x7, .f32⟩
  | .hbm, ⟨3, _⟩ => ⟨S128, .f32⟩
  | .hbm, ⟨4, _⟩ => ⟨S128x7, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x7, .f32⟩
  | .hbm, ⟨21, _⟩ => ⟨S_, .f32⟩
  | .hbm, ⟨22, _⟩ => ⟨S100000x7, .f32⟩
  | .hbm, ⟨23, _⟩ => ⟨S1600000x1, .i32⟩
  | .hbm, ⟨24, _⟩ => ⟨S100000x7, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x7, .f32⟩
  | .hbm, ⟨36, _⟩ => ⟨S100000x7, .f32⟩
  | .hbm, ⟨37, _⟩ => ⟨S7x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S7x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x7 : S_.BroadcastsInDim S100000x7 (![] : Fin 0 → Fin S100000x7.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  transposes_S128x7_S7x128_1_0 : S128x7.Transposes [1, 0] S7x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  gather_S100000x7_S1600000x1_S1600000x7_1_0_n_n_0_1_17_wf : GatherDims.WF S100000x7 S1600000x1 S1600000x7 [1] [0] [] [0] [] 1 ![1, 7]
  scatter_S100000x7_S1600000x1_S1600000x7_1_0_0_1_wf : ScatterDims.WF S100000x7 S1600000x1 S1600000x7 [1] [0] [0] 1
  scatter_S100000_S1600000x1_S1600000_n_0_0_1_wf : ScatterDims.WF S100000 S1600000x1 S1600000 [] [0] [0] 1
  dot_S100000x7_S7x128_S100000x128_1_0_0_1_n_n_wf : DotDims.WF S100000x7 S7x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x7_S1600000x1_S1600000x7_1_0_n_n_0_1_17 : GatherDims S100000x7 S1600000x1 S1600000x7 where
  offsetDims := [1]
  collapsedSliceDims := [0]
  operandBatchingDims := []
  startIndicesBatchingDims := []
  startIndexMap := [0]
  indexVectorDim := 1
  sliceSizes := ![1, 7]
  wf := gather_S100000x7_S1600000x1_S1600000x7_1_0_n_n_0_1_17_wf
def scatter_S100000x7_S1600000x1_S1600000x7_1_0_0_1 : ScatterDims S100000x7 S1600000x1 S1600000x7 where
  updateWindowDims := [1]
  insertedWindowDims := [0]
  scatterDimsToOperandDims := [0]
  indexVectorDim := 1
  wf := scatter_S100000x7_S1600000x1_S1600000x7_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x7_S7x128_S100000x128_1_0_0_1_n_n : DotDims S100000x7 S7x128 S100000x128 where
  lhsContracting := [1]
  rhsContracting := [0]
  lhsNonContracting := [0]
  rhsNonContracting := [1]
  lhsBatch := []
  rhsBatch := []
  wf := dot_S100000x7_S7x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel's run with its result array NAMED.

  @main is four segments: the host operations before the first launch, the first launch, the host operations between
  the launches, the second launch.  The buffer contents at the four boundaries are a fold from the launch memory
  (the generated frame's W0 … W4).  Every unscoped buffer ends at the last boundary's contents; read at the result
  buffer this names the result, beside the eight arguments, which end as launched.
-/
import proofs.«131367_j20701742366801_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_named : θ_run defs (onTc (τ := τ) (main (F := F))) ⟨m, fun _ => 0, ρ⟩ (fun r => ∀ c : Dev nD,
      r.2.mem ((c.tc : Thread nD τ).loc main_v53) = W4 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v53 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Whole

end
-- ==== Proof.LibPlainDot.lean ====
/-
  A plain matrix product read at an entry, over the extended reals.

  The product of an [M, K] array with a [K, N] array into [M, N] — the left operand's second axis contracted with the
  right operand's first, no batch axes — has at (p, q) the value  Σ_k x(p, k) · w(k, q).  This holds for the device's
  product into the zero accumulator and for the host's product alike: at the ideal instance both are the exact finite
  sum over the contracted coordinate, and the contraction index of a one-axis contraction is that coordinate.
-/
import Idealize.ShloMosaic.Lib.ValueIdx
import Idealize.ShloMosaic.PureOps.Ideal.Laws

namespace Cert.LibPlainDot

open Idealize.ShloMosaic Idealize.ShloMosaic.ValueIdx

variable {M K N : ℕ}

/-- The left operand's row coordinate is the result's row coordinate. -/
theorem lhs_row (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction coordinate. -/
theorem rhs_row (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column coordinate. -/
theorem rhs_col (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- At the k-th contraction coordinate the left operand is read at (p, k). -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => exact lhs_row _ _
  | ⟨1, _⟩ => exact (lhs_col _ _).trans hk

/-- At the k-th contraction coordinate the right operand is read at (k, q). -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact (rhs_row _ _).trans hk
  | ⟨1, _⟩ => exact rhs_col _ _

/-- The device's plain product into the zero accumulator, at (p, q), is Σ_k x(p, k) · w(k, q). -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    matmul (DotDims.plain M K N) prec x w (constant (F := Ideal) ⟨2, ![M, N]⟩ .f32 0x00000000#32) (ix2 p q)
      = ∑ k : Fin K, x (ix2 p k) * w (ix2 k q) := by
  refine (Ideal.matmul_constant_zero_apply (DotDims.plain M K N) prec x w (ix2 p q)).trans ?_
  refine (Equiv.sum_comp (contrEquiv1 (DotDims.plain M K N) K rfl rfl).symm _).symm.trans ?_
  exact Finset.sum_congr rfl fun k _ => by rw [lhsIdx_eq p q k, rhsIdx_eq p q k]

/-- The host's plain product, at (p, q), is Σ_k x(p, k) · w(k, q). -/
theorem hostDot_apply {φ₁ φ₂ : FTy} (prec : Option ContractPrecision)
    (x : FVec Ideal ⟨2, ![M, K]⟩ φ₁) (w : FVec Ideal ⟨2, ![K, N]⟩ φ₂) (p : Fin M) (q : Fin N) :
    Host.dotGeneral (DotDims.plain M K N) prec x w (ix2 p q) = ∑ k : Fin K, x (ix2 p k) * w (ix2 k q) := by
  refine (Ideal.dotGeneral_apply (DotDims.plain M K N) prec .single x w (ix2 p q)).trans ?_
  refine (Equiv.sum_comp (contrEquiv1 (DotDims.plain M K N) K rfl rfl).symm _).symm.trans ?_
  exact Finset.sum_congr rfl fun k _ => by rw [lhsIdx_eq p q k, rhsIdx_eq p q k]

end Cert.LibPlainDot
-- ==== Proof.Spec.lean ====
/-
  One GraphSAGE combine, entry by entry, over the extended reals.

  For node p and output feature q the combine of the neighbourhood mean a and the node's own features x is

      Σ_k a(p, k) · wl(k, q)  +  Σ_k x(p, k) · wr(k, q)  +  b(0, q)

  with wl, wr the two weight matrices laid out input-feature first and b the bias as a one-row matrix.  The first
  layer clamps it from below at a threshold z (the rectifier, z the zero word's value).
-/
import Idealize.ShloMosaic.Lib.ValueIdx
import Idealize.ShloMosaic.PureOps.Ideal

noncomputable section

namespace Cert.Sage

open Idealize.ShloMosaic Idealize.ShloMosaic.ValueIdx

/-- The row coordinate of a rank-2 index, typed by the literal extent. -/
abbrev row {n0 n1 : ℕ} (i : (⟨2, ![n0, n1]⟩ : Shape).Idx) : Fin n0 := ⟨(i 0).val, idx2_lt0 i⟩
/-- The column coordinate of a rank-2 index, typed by the literal extent. -/
abbrev col {n0 n1 : ℕ} (i : (⟨2, ![n0, n1]⟩ : Shape).Idx) : Fin n1 := ⟨(i 1).val, idx2_lt1 i⟩

/-- A rank-2 index is its row and column. -/
theorem eq_row_col {n0 n1 : ℕ} (i : (⟨2, ![n0, n1]⟩ : Shape).Idx) : i = ix2 (row i) (col i) := by
  funext a; match a with | ⟨0, _⟩ => rfl | ⟨1, _⟩ => rfl

/-- The combine at entry (p, q). -/
def combine {n d h : ℕ} (a x : (⟨2, ![n, d]⟩ : Shape).Idx → EReal) (wl wr : (⟨2, ![d, h]⟩ : Shape).Idx → EReal)
    (b : (⟨2, ![1, h]⟩ : Shape).Idx → EReal) (p : Fin n) (q : Fin h) : EReal :=
  (∑ k : Fin d, a (ix2 p k) * wl (ix2 k q) + ∑ k : Fin d, x (ix2 p k) * wr (ix2 k q)) + b (ix2 (0 : Fin 1) q)

/-- The combine as a whole [n, h] array. -/
def combineAll {n d h : ℕ} (a x : (⟨2, ![n, d]⟩ : Shape).Idx → EReal) (wl wr : (⟨2, ![d, h]⟩ : Shape).Idx → EReal)
    (b : (⟨2, ![1, h]⟩ : Shape).Idx → EReal) : (⟨2, ![n, h]⟩ : Shape).Idx → EReal :=
  fun i => combine a x wl wr b (row i) (col i)

/-- The combine clamped from below at z, as a whole [n, h] array. -/
def clampedAll {n d h : ℕ} (z : EReal) (a x : (⟨2, ![n, d]⟩ : Shape).Idx → EReal) (wl wr : (⟨2, ![d, h]⟩ : Shape).Idx → EReal)
    (b : (⟨2, ![1, h]⟩ : Shape).Idx → EReal) : (⟨2, ![n, h]⟩ : Shape).Idx → EReal :=
  fun i => max (combine a x wl wr b (row i) (col i)) z

/-- The same three terms summed with the bias second: addition on the extended reals is commutative and associative. -/
theorem combine_bias_second {n d h : ℕ} (a x : (⟨2, ![n, d]⟩ : Shape).Idx → EReal) (wl wr : (⟨2, ![d, h]⟩ : Shape).Idx → EReal)
    (b : (⟨2, ![1, h]⟩ : Shape).Idx → EReal) (p : Fin n) (q : Fin h) :
    (∑ k : Fin d, a (ix2 p k) * wl (ix2 k q) + b (ix2 (0 : Fin 1) q)) + ∑ k : Fin d, x (ix2 p k) * wr (ix2 k q)
      = combine a x wl wr b p q := by
  unfold combine
  exact add_right_comm _ _ _

end Cert.Sage

end
-- ==== Proof.KBody.lean ====
/-
  What each launch's body stores, read at an entry of its block.

  Both bodies load a [2000, d] block of means and of node features, the two [d, 128] weight matrices and the one-row
  bias, multiply each block with its matrix into a zero accumulator, add the two products, then the bias row spread
  over the 2000 rows; the first body also clamps at zero.  At entry (p, q) of the block that is the GraphSAGE combine of
  the loaded blocks (first body: clamped at the zero word's value).
-/
import proofs.«131367_j20701742366801_1_alg».proof.Proof.Gen.KernelIdeal.Skeleton
import proofs.«131367_j20701742366801_1_alg».proof.Proof.LibPlainDot
import proofs.«131367_j20701742366801_1_alg».proof.Proof.Spec
import Idealize.ShloMosaic.Lib.ValueLayout
import Idealize.ShloMosaic.Lib.Pipeline.Value

noncomputable section

namespace Cert.KernelIdeal.Whole

open Cert.KernelIdeal Cert.KernelIdeal.Gen
open Idealize.ShloMosaic Idealize.ShloMosaic.ValueIdx

/-- The first launch's contraction is the plain [2000, 7] by [7, 128] product. -/
theorem dot0_plain : dot_S2000x7_S7x128_S2000x128_1_0_0_1_n_n = DotDims.plain 2000 7 128 := rfl
/-- The second launch's contraction is the plain [2000, 128] by [128, 128] product. -/
theorem dot1_plain : dot_S2000x128_S128x128_S2000x128_1_0_0_1_n_n = DotDims.plain 2000 128 128 := rfl

/-- The first body's stored value at (p, q): the combine of its loaded blocks, clamped at the zero word's value. -/
theorem pay0_apply (x0 x1 : Vec Ideal S2000x7 .bf16) (x2 x3 : Vec Ideal S7x128 .bf16) (x4 : Vec Ideal S1x128 .f32)
    (p : Fin 2000) (q : Fin 128) :
    k0_pay1 (F := Ideal) x0 x1 x2 x3 x4 (ix2 p q)
      = max (Sage.combine x0 x1 x2 x3 x4 p q) (Ideal.ofBits .f32 0x00000000#32) := by
  unfold k0_pay1
  simp only [shapeCast_self, dot0_plain]
  rw [maximumf_apply, addf_apply, addf_apply, broadcast_apply,
    LibPlainDot.matmul_zero_apply none x0 x2 p q, LibPlainDot.matmul_zero_apply none x1 x3 p q,
    broadcastTo_1b_ab_apply x4 _ p q]
  rfl

/-- The second body's stored value at (p, q): the combine of its loaded blocks. -/
theorem pay1_apply (x0 x1 : Vec Ideal S2000x128 .bf16) (x2 x3 : Vec Ideal S128x128 .bf16) (x4 : Vec Ideal S1x128 .f32)
    (p : Fin 2000) (q : Fin 128) :
    k1_pay1 (F := Ideal) x0 x1 x2 x3 x4 (ix2 p q) = Sage.combine x0 x1 x2 x3 x4 p q := by
  unfold k1_pay1
  simp only [shapeCast_self, dot1_plain]
  rw [addf_apply, addf_apply,
    LibPlainDot.matmul_zero_apply none x0 x2 p q, LibPlainDot.matmul_zero_apply none x1 x3 p q,
    broadcastTo_1b_ab_apply x4 _ p q]
  rfl

end Cert.KernelIdeal.Whole

end
-- ==== Proof.KBlocks1.lean ====
/-
  The second launch's result array as ONE function of the arrays it reads, whatever the buffers hold when the
  launch is entered.

  The grid has 50 points; point t reads rows 2000·t … 2000·t + 1999 of the mean array and of the feature array, the two
  weight matrices and the bias row whole, and writes back rows 2000·t … 2000·t + 1999 of the result.  What it writes at
  (p, q) of its block is the combine of the loaded blocks, which is the combine of the whole arrays at row
  2000·t + p: a row of the result depends on the same row of the two row-blocked operands only.  The 50 blocks tile
  the 100000 rows (row r is in block r / 2000), so the array ends holding the combine at every entry.
-/
import proofs.«131367_j20701742366801_1_alg».proof.Proof.Gen.KernelIdeal.Frame
import proofs.«131367_j20701742366801_1_alg».proof.Proof.KBody
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The result array: the combine of the five operand arrays as the launch finds them. -/
def whole1 (c : Dev nD) : S100000x128.Idx → EReal :=
  Sage.combineAll (n := 100000) (d := 128) (h := 128)
    (V c main_v51 : S100000x128.Idx → EReal) (V c main_v52 : S100000x128.Idx → EReal)
    (V c main_v47 : S128x128.Idx → EReal) (V c main_v49 : S128x128.Idx → EReal) (V c main_v50 : S1x128.Idx → EReal)

/-- The printed index maps over the grid: the two row-blocked operands and the result are at block row t, block
    column 0; the weights and the bias always at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The mean block at point t, at (p, k), is the mean array at row t·2000 + p. -/
theorem blk1_0_apply (c : Dev nD) (t : Fin cfg1.N) (p : Fin 2000) (k : Fin 128) (P : Fin 100000) (hP : P.val = t.val * 2000 + p.val) :
    iblk1 V c 0 t (ix2 p k) = (V c main_v51 : S100000x128.Idx → EReal) (ix2 P k) := by
  obtain ⟨e0, e1, -⟩ := idx_facts1 t
  show (V c main_v51 : S100000x128.Idx → EReal) (((cfg1.win 0).blk t).view.emb (ix2 p k)) = _
  refine congrArg (V c main_v51 : S100000x128.Idx → EReal) (funext fun a => Fin.ext ?_)
  match a with
  | ⟨0, _⟩ => show win1_0.index t (0 : Fin 2) * 2000 + 1 * p.val = P.val; rw [e0, hP]; omega
  | ⟨1, _⟩ => show win1_0.index t (1 : Fin 2) * 128 + 1 * k.val = k.val; rw [e1]; omega

/-- The feature block at point t, at (p, k), is the feature array at row t·2000 + p. -/
theorem blk1_1_apply (c : Dev nD) (t : Fin cfg1.N) (p : Fin 2000) (k : Fin 128) (P : Fin 100000) (hP : P.val = t.val * 2000 + p.val) :
    iblk1 V c 1 t (ix2 p k) = (V c main_v52 : S100000x128.Idx → EReal) (ix2 P k) := by
  obtain ⟨-, -, e0, e1, -⟩ := idx_facts1 t
  show (V c main_v52 : S100000x128.Idx → EReal) (((cfg1.win 1).blk t).view.emb (ix2 p k)) = _
  refine congrArg (V c main_v52 : S100000x128.Idx → EReal) (funext fun a => Fin.ext ?_)
  match a with
  | ⟨0, _⟩ => show win1_1.index t (0 : Fin 2) * 2000 + 1 * p.val = P.val; rw [e0, hP]; omega
  | ⟨1, _⟩ => show win1_1.index t (1 : Fin 2) * 128 + 1 * k.val = k.val; rw [e1]; omega

/-- The first weight block is the whole matrix at every point. -/
theorem blk1_2_apply (c : Dev nD) (t : Fin cfg1.N) (k : Fin 128) (q : Fin 128) :
    iblk1 V c 2 t (ix2 k q) = (V c main_v47 : S128x128.Idx → EReal) (ix2 k q) := by
  obtain ⟨-, -, -, -, e0, e1, -⟩ := idx_facts1 t
  show (V c main_v47 : S128x128.Idx → EReal) (((cfg1.win 2).blk t).view.emb (ix2 k q)) = _
  refine congrArg (V c main_v47 : S128x128.Idx → EReal) (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The second weight block is the whole matrix at every point. -/
theorem blk1_3_apply (c : Dev nD) (t : Fin cfg1.N) (k : Fin 128) (q : Fin 128) :
    iblk1 V c 3 t (ix2 k q) = (V c main_v49 : S128x128.Idx → EReal) (ix2 k q) := by
  obtain ⟨-, -, -, -, -, -, e0, e1, -⟩ := idx_facts1 t
  show (V c main_v49 : S128x128.Idx → EReal) (((cfg1.win 3).blk t).view.emb (ix2 k q)) = _
  refine congrArg (V c main_v49 : S128x128.Idx → EReal) (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The bias block is the whole one-row matrix at every point. -/
theorem blk1_4_apply (c : Dev nD) (t : Fin cfg1.N) (u : Fin 1) (q : Fin 128) :
    iblk1 V c 4 t (ix2 u q) = (V c main_v50 : S1x128.Idx → EReal) (ix2 u q) := by
  obtain ⟨-, -, -, -, -, -, -, -, e0, e1, -⟩ := idx_facts1 t
  show (V c main_v50 : S1x128.Idx → EReal) (((cfg1.win 4).blk t).view.emb (ix2 u q)) = _
  refine congrArg (V c main_v50 : S1x128.Idx → EReal) (funext fun a => Fin.ext ?_)
  match a with
  | ⟨0, _⟩ => show win1_4.index t (0 : Fin 2) * 1 + 1 * u.val = u.val; rw [e0]; omega
  | ⟨1, _⟩ => show win1_4.index t (1 : Fin 2) * 128 + 1 * q.val = q.val; rw [e1]; omega

/-- The combine of point t's blocks at (p, q) is the combine of the whole arrays at (t·2000 + p, q). -/
theorem combine_blocks1 (c : Dev nD) (t : Fin cfg1.N) (p : Fin 2000) (q : Fin 128) (P : Fin 100000) (hP : P.val = t.val * 2000 + p.val) :
    Sage.combine (n := 2000) (d := 128) (h := 128) (iblk1 V c 0 t) (iblk1 V c 1 t) (iblk1 V c 2 t) (iblk1 V c 3 t) (iblk1 V c 4 t) p q
      = Sage.combine (n := 100000) (d := 128) (h := 128) (V c main_v51 : S100000x128.Idx → EReal) (V c main_v52 : S100000x128.Idx → EReal)
          (V c main_v47 : S128x128.Idx → EReal) (V c main_v49 : S128x128.Idx → EReal) (V c main_v50 : S1x128.Idx → EReal) P q := by
  unfold Sage.combine
  rw [blk1_4_apply V c t 0 q]
  refine congrArg₂ (· + ·) (congrArg₂ (· + ·) (Finset.sum_congr rfl fun k _ => ?_) (Finset.sum_congr rfl fun k _ => ?_)) rfl
  · rw [blk1_0_apply V c t p k P hP, blk1_2_apply V c t k q]
  · rw [blk1_1_apply V c t p k P hP, blk1_3_apply V c t k q]

/-- WHAT POINT t WRITES BACK is block t of the whole-array function. -/
theorem flushed1_eq (c : Dev nD) (t : Fin cfg1.N) :
    (dat1 V c).flushed 5 t = ((cfg1.win 5).blk t).view.read (Elt Ideal) (whole1 V c) := by
  show (cfg1.win 5).cut (grid1.coords t) ((dat1 V c).after 5 t) = _
  rw [after1_5]
  unfold out1_5
  rw [View.canon_unit_zero hz1]
  simp only [View.ld_unit_zero (S := S2000x128) hz1, View.ld_unit_zero (S := S128x128) hz1, View.ld_unit_zero (S := S1x128) hz1]
  obtain ⟨-, -, -, -, -, -, -, -, -, -, e0, e1⟩ := idx_facts1 t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = whole1 V c (((cfg1.win 5).blk t).view.emb (ix2 p q))
  refine (pay1_apply _ _ _ _ _ p q).trans ?_
  have hr : (Sage.row (n0 := 100000) (n1 := 128) (((cfg1.win 5).blk t).view.emb (ix2 p q))).val = t.val * 2000 + p.val := by
    show win1_5.index t (0 : Fin 2) * 2000 + 1 * p.val = _
    rw [e0]; omega
  have hc : Sage.col (n0 := 100000) (n1 := 128) (((cfg1.win 5).blk t).view.emb (ix2 p q)) = q := Fin.ext (by
    show win1_5.index t (1 : Fin 2) * 128 + 1 * q.val = q.val
    rw [e1]; omega)
  unfold whole1 Sage.combineAll
  show Sage.combine _ _ _ _ _ p q = Sage.combine _ _ _ _ _ _ _
  rw [hc, combine_blocks1 V c t p q _ hr]

/-- An index of the array is in point t's block iff each coordinate is in the block's range on its axis. -/
theorem mem_blk1 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v53).slice (win1_5.rect t)).set ↔ _
  rw [View.set_slice_whole, Rect.mem_set_unit]
  exact Iff.rfl

/-- Every index of the result array is in the block of the point its row falls in. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hlt : (i 0).val / 2000 < cfg1.N := by
    show (i 0).val / 2000 < grid1.N
    rw [N_1]; omega
  obtain ⟨-, -, -, -, -, -, -, -, -, -, e0, e1⟩ := idx_facts1 ⟨(i 0).val / 2000, hlt⟩
  refine ⟨⟨(i 0).val / 2000, hlt⟩, flush1_5 _, ?_⟩
  rw [mem_blk1]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, hlt⟩ (1 : Fin 2) * 128 ≤ (i 1).val ∧ (i 1).val < win1_5.index ⟨(i 0).val / 2000, hlt⟩ (1 : Fin 2) * 128 + 128
    rw [e1]
    omega

/-- THE ARRAY after the launch: the whole-array function of the operand arrays as the launch found them. -/
theorem final1 (c : Dev nD) : (dat1 V c).arrAt 5 cfg1.N = whole1 V c :=
  (dat1 V c).arrAt_eq_of_cover 5 (whole1 V c) (fun t _ => flushed1_eq V c t) (cover1)

end Cert.KernelIdeal.Whole

end
-- ==== Proof.KBlocks0.lean ====
/-
  The first launch's result array as ONE function of the arrays it reads, whatever the buffers hold when the
  launch is entered.

  The grid has 50 points; point t reads rows 2000·t … 2000·t + 1999 of the mean array and of the feature array, the two
  weight matrices and the bias row whole, and writes back rows 2000·t … 2000·t + 1999 of the result.  What it writes at
  (p, q) of its block is the combine of the loaded blocks, clamped at zero, which is the combine of the whole arrays at row
  2000·t + p: a row of the result depends on the same row of the two row-blocked operands only.  The 50 blocks tile
  the 100000 rows (row r is in block r / 2000), so the array ends holding the combine, clamped, at every entry.
-/
import proofs.«131367_j20701742366801_1_alg».proof.Proof.Gen.KernelIdeal.Frame
import proofs.«131367_j20701742366801_1_alg».proof.Proof.KBody
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The result array: the combine, clamped, of the five operand arrays as the launch finds them. -/
def whole0 (c : Dev nD) : S100000x128.Idx → EReal :=
  Sage.clampedAll (n := 100000) (d := 7) (h := 128) (Ideal.ofBits .f32 0x00000000#32)
    (V c main_v28 : S100000x7.Idx → EReal) (V c main_v29 : S100000x7.Idx → EReal)
    (V c main_v24 : S7x128.Idx → EReal) (V c main_v26 : S7x128.Idx → EReal) (V c main_v27 : S1x128.Idx → EReal)

/-- The printed index maps over the grid: the two row-blocked operands and the result are at block row t, block
    column 0; the weights and the bias always at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The mean block at point t, at (p, k), is the mean array at row t·2000 + p. -/
theorem blk0_0_apply (c : Dev nD) (t : Fin cfg0.N) (p : Fin 2000) (k : Fin 7) (P : Fin 100000) (hP : P.val = t.val * 2000 + p.val) :
    iblk0 V c 0 t (ix2 p k) = (V c main_v28 : S100000x7.Idx → EReal) (ix2 P k) := by
  obtain ⟨e0, e1, -⟩ := idx_facts0 t
  show (V c main_v28 : S100000x7.Idx → EReal) (((cfg0.win 0).blk t).view.emb (ix2 p k)) = _
  refine congrArg (V c main_v28 : S100000x7.Idx → EReal) (funext fun a => Fin.ext ?_)
  match a with
  | ⟨0, _⟩ => show win0_0.index t (0 : Fin 2) * 2000 + 1 * p.val = P.val; rw [e0, hP]; omega
  | ⟨1, _⟩ => show win0_0.index t (1 : Fin 2) * 7 + 1 * k.val = k.val; rw [e1]; omega

/-- The feature block at point t, at (p, k), is the feature array at row t·2000 + p. -/
theorem blk0_1_apply (c : Dev nD) (t : Fin cfg0.N) (p : Fin 2000) (k : Fin 7) (P : Fin 100000) (hP : P.val = t.val * 2000 + p.val) :
    iblk0 V c 1 t (ix2 p k) = (V c main_v29 : S100000x7.Idx → EReal) (ix2 P k) := by
  obtain ⟨-, -, e0, e1, -⟩ := idx_facts0 t
  show (V c main_v29 : S100000x7.Idx → EReal) (((cfg0.win 1).blk t).view.emb (ix2 p k)) = _
  refine congrArg (V c main_v29 : S100000x7.Idx → EReal) (funext fun a => Fin.ext ?_)
  match a with
  | ⟨0, _⟩ => show win0_1.index t (0 : Fin 2) * 2000 + 1 * p.val = P.val; rw [e0, hP]; omega
  | ⟨1, _⟩ => show win0_1.index t (1 : Fin 2) * 7 + 1 * k.val = k.val; rw [e1]; omega

/-- The first weight block is the whole matrix at every point. -/
theorem blk0_2_apply (c : Dev nD) (t : Fin cfg0.N) (k : Fin 7) (q : Fin 128) :
    iblk0 V c 2 t (ix2 k q) = (V c main_v24 : S7x128.Idx → EReal) (ix2 k q) := by
  obtain ⟨-, -, -, -, e0, e1, -⟩ := idx_facts0 t
  show (V c main_v24 : S7x128.Idx → EReal) (((cfg0.win 2).blk t).view.emb (ix2 k q)) = _
  refine congrArg (V c main_v24 : S7x128.Idx → EReal) (funext fun a => Fin.ext ?_)
  match a with
  | ⟨0, _⟩ => show win0_2.index t (0 : Fin 2) * 7 + 1 * k.val = k.val; rw [e0]; omega
  | ⟨1, _⟩ => show win0_2.index t (1 : Fin 2) * 128 + 1 * q.val = q.val; rw [e1]; omega

/-- The second weight block is the whole matrix at every point. -/
theorem blk0_3_apply (c : Dev nD) (t : Fin cfg0.N) (k : Fin 7) (q : Fin 128) :
    iblk0 V c 3 t (ix2 k q) = (V c main_v26 : S7x128.Idx → EReal) (ix2 k q) := by
  obtain ⟨-, -, -, -, -, -, e0, e1, -⟩ := idx_facts0 t
  show (V c main_v26 : S7x128.Idx → EReal) (((cfg0.win 3).blk t).view.emb (ix2 k q)) = _
  refine congrArg (V c main_v26 : S7x128.Idx → EReal) (funext fun a => Fin.ext ?_)
  match a with
  | ⟨0, _⟩ => show win0_3.index t (0 : Fin 2) * 7 + 1 * k.val = k.val; rw [e0]; omega
  | ⟨1, _⟩ => show win0_3.index t (1 : Fin 2) * 128 + 1 * q.val = q.val; rw [e1]; omega

/-- The bias block is the whole one-row matrix at every point. -/
theorem blk0_4_apply (c : Dev nD) (t : Fin cfg0.N) (u : Fin 1) (q : Fin 128) :
    iblk0 V c 4 t (ix2 u q) = (V c main_v27 : S1x128.Idx → EReal) (ix2 u q) := by
  obtain ⟨-, -, -, -, -, -, -, -, e0, e1, -⟩ := idx_facts0 t
  show (V c main_v27 : S1x128.Idx → EReal) (((cfg0.win 4).blk t).view.emb (ix2 u q)) = _
  refine congrArg (V c main_v27 : S1x128.Idx → EReal) (funext fun a => Fin.ext ?_)
  match a with
  | ⟨0, _⟩ => show win0_4.index t (0 : Fin 2) * 1 + 1 * u.val = u.val; rw [e0]; omega
  | ⟨1, _⟩ => show win0_4.index t (1 : Fin 2) * 128 + 1 * q.val = q.val; rw [e1]; omega

/-- The combine of point t's blocks at (p, q) is the combine of the whole arrays at (t·2000 + p, q). -/
theorem combine_blocks0 (c : Dev nD) (t : Fin cfg0.N) (p : Fin 2000) (q : Fin 128) (P : Fin 100000) (hP : P.val = t.val * 2000 + p.val) :
    Sage.combine (n := 2000) (d := 7) (h := 128) (iblk0 V c 0 t) (iblk0 V c 1 t) (iblk0 V c 2 t) (iblk0 V c 3 t) (iblk0 V c 4 t) p q
      = Sage.combine (n := 100000) (d := 7) (h := 128) (V c main_v28 : S100000x7.Idx → EReal) (V c main_v29 : S100000x7.Idx → EReal)
          (V c main_v24 : S7x128.Idx → EReal) (V c main_v26 : S7x128.Idx → EReal) (V c main_v27 : S1x128.Idx → EReal) P q := by
  unfold Sage.combine
  rw [blk0_4_apply V c t 0 q]
  refine congrArg₂ (· + ·) (congrArg₂ (· + ·) (Finset.sum_congr rfl fun k _ => ?_) (Finset.sum_congr rfl fun k _ => ?_)) rfl
  · rw [blk0_0_apply V c t p k P hP, blk0_2_apply V c t k q]
  · rw [blk0_1_apply V c t p k P hP, blk0_3_apply V c t k q]

/-- WHAT POINT t WRITES BACK is block t of the whole-array function. -/
theorem flushed0_eq (c : Dev nD) (t : Fin cfg0.N) :
    (dat0 V c).flushed 5 t = ((cfg0.win 5).blk t).view.read (Elt Ideal) (whole0 V c) := by
  show (cfg0.win 5).cut (grid0.coords t) ((dat0 V c).after 5 t) = _
  rw [after0_5]
  unfold out0_5
  rw [View.canon_unit_zero hz0]
  simp only [View.ld_unit_zero (S := S2000x7) hz0, View.ld_unit_zero (S := S7x128) hz0, View.ld_unit_zero (S := S1x128) hz0]
  obtain ⟨-, -, -, -, -, -, -, -, -, -, e0, e1⟩ := idx_facts0 t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = whole0 V c (((cfg0.win 5).blk t).view.emb (ix2 p q))
  refine (pay0_apply _ _ _ _ _ p q).trans ?_
  have hr : (Sage.row (n0 := 100000) (n1 := 128) (((cfg0.win 5).blk t).view.emb (ix2 p q))).val = t.val * 2000 + p.val := by
    show win0_5.index t (0 : Fin 2) * 2000 + 1 * p.val = _
    rw [e0]; omega
  have hc : Sage.col (n0 := 100000) (n1 := 128) (((cfg0.win 5).blk t).view.emb (ix2 p q)) = q := Fin.ext (by
    show win0_5.index t (1 : Fin 2) * 128 + 1 * q.val = q.val
    rw [e1]; omega)
  unfold whole0 Sage.clampedAll
  show max (Sage.combine _ _ _ _ _ p q) _ = max (Sage.combine _ _ _ _ _ _ _) _
  rw [hc, combine_blocks0 V c t p q _ hr]

/-- An index of the array is in point t's block iff each coordinate is in the block's range on its axis. -/
theorem mem_blk0 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v30).slice (win0_5.rect t)).set ↔ _
  rw [View.set_slice_whole, Rect.mem_set_unit]
  exact Iff.rfl

/-- Every index of the result array is in the block of the point its row falls in. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hlt : (i 0).val / 2000 < cfg0.N := by
    show (i 0).val / 2000 < grid0.N
    rw [N_0]; omega
  obtain ⟨-, -, -, -, -, -, -, -, -, -, e0, e1⟩ := idx_facts0 ⟨(i 0).val / 2000, hlt⟩
  refine ⟨⟨(i 0).val / 2000, hlt⟩, flush0_5 _, ?_⟩
  rw [mem_blk0]
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, hlt⟩ (1 : Fin 2) * 128 ≤ (i 1).val ∧ (i 1).val < win0_5.index ⟨(i 0).val / 2000, hlt⟩ (1 : Fin 2) * 128 + 128
    rw [e1]
    omega

/-- THE ARRAY after the launch: the whole-array function of the operand arrays as the launch found them. -/
theorem final0 (c : Dev nD) : (dat0 V c).arrAt 5 cfg0.N = whole0 V c :=
  (dat0 V c).arrAt_eq_of_cover 5 (whole0 V c) (fun t _ => flushed0_eq V c t) (cover0)

end Cert.KernelIdeal.Whole

end
-- ==== Proof.KHost0.lean ====
/-
  What the first launch finds in its five operand arrays: the host operations before it, read back to the arguments.

  The mean array is the segment sum of the gathered source rows divided by the clamped in-degree — the same operations,
  in the same order, as the reference's first aggregation —, narrowed to the shorter float format (the identity at the
  ideal instance); the feature array is the argument itself, narrowed; the two weight arrays are the weight matrices
  transposed, narrowed; the bias array is the bias vector set as one row.
-/
import proofs.«131367_j20701742366801_1_alg».proof.Proof.Gen.KernelIdeal.Frame
import proofs.«131367_j20701742366801_1_alg».proof.Proof.Gen.ReferenceIdeal.Read
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

/-- Narrowing the float format is the identity on arrays of extended reals. -/
theorem truncf_id {s : Shape} {φ ψ : FTy} (a : FVec Ideal s φ) (h : ψ.bits < φ.bits) :
    (truncf ψ a h : FVec Ideal s ψ) = a := rfl

variable (m : (ℓ : Loc nD τ sig) → Buf (Elt Ideal) ℓ) (ρ : Dev nD → PrngReg)

set_option maxHeartbeats 400000 in
/-- The mean array at the first launch is the reference's first neighbourhood mean of the arguments. -/
theorem entry0_mean (c : Dev nD) :
    (V1 m ρ c main_v28 : S100000x7.Idx → EReal)
      = Cert.ReferenceIdeal.Read.val_main_v22 (F := Ideal) (m ((c.tc : Thread nD τ).loc main_arg0)) (m ((c.tc : Thread nD τ).loc main_arg1)) := by
  show StableHlo.after hostOps0 (W0 m ρ c) (Proc.devRef .tc main_v28) = _
  after_results_simp
  rw [truncf_id (φ := .f32) (ψ := .bf16)]
  unfold Cert.ReferenceIdeal.Read.val_main_v22 Cert.ReferenceIdeal.Read.val_main_v13 Cert.ReferenceIdeal.Read.val_main_v11 Cert.ReferenceIdeal.Read.val_main_cst Cert.ReferenceIdeal.Read.val_main_v12 Cert.ReferenceIdeal.Read.val_main_v3 Cert.ReferenceIdeal.Read.val_main_v2 Cert.ReferenceIdeal.Read.val_main_v10 Cert.ReferenceIdeal.Read.val_main_v9 Cert.ReferenceIdeal.Read.val_main_v8 Cert.ReferenceIdeal.Read.val_main_v5 Cert.ReferenceIdeal.Read.val_main_v1 Cert.ReferenceIdeal.Read.val_main_v0 Cert.ReferenceIdeal.Read.val_main_v4 Cert.ReferenceIdeal.Read.val_main_c Cert.ReferenceIdeal.Read.val_main_v7 Cert.ReferenceIdeal.Read.val_main_v6 Cert.ReferenceIdeal.Read.val_main_c_0 Cert.ReferenceIdeal.Read.val_main_v21 Cert.ReferenceIdeal.Read.val_main_v20 Cert.ReferenceIdeal.Read.val_main_v19 Cert.ReferenceIdeal.Read.val_main_v17 Cert.ReferenceIdeal.Read.val_main_v15 Cert.ReferenceIdeal.Read.val_main_cst_2 Cert.ReferenceIdeal.Read.val_main_v16 Cert.ReferenceIdeal.Read.val_main_v14 Cert.ReferenceIdeal.Read.val_main_cst_1 Cert.ReferenceIdeal.Read.val_main_v18 Cert.ReferenceIdeal.Read.val_main_cst_3
  rfl

/-- The feature array at the first launch is the feature argument. -/
theorem entry0_feat (c : Dev nD) :
    (V1 m ρ c main_v29 : S100000x7.Idx → EReal) = m ((c.tc : Thread nD τ).loc main_arg0) := by
  show StableHlo.after hostOps0 (W0 m ρ c) (Proc.devRef .tc main_v29) = _
  after_results_simp
  rw [truncf_id (φ := .f32) (ψ := .bf16)]

/-- The first weight array at the first launch is the first weight matrix transposed. -/
theorem entry0_wl (c : Dev nD) :
    (V1 m ρ c main_v24 : S7x128.Idx → EReal) = Cert.ReferenceIdeal.Read.val_main_v23 (F := Ideal) (m ((c.tc : Thread nD τ).loc main_arg2)) := by
  show StableHlo.after hostOps0 (W0 m ρ c) (Proc.devRef .tc main_v24) = _
  after_results_simp
  rw [truncf_id (φ := .f32) (ψ := .bf16)]
  unfold Cert.ReferenceIdeal.Read.val_main_v23
  rfl

/-- The second weight array at the first launch is the second weight matrix transposed. -/
theorem entry0_wr (c : Dev nD) :
    (V1 m ρ c main_v26 : S7x128.Idx → EReal) = Cert.ReferenceIdeal.Read.val_main_v28 (F := Ideal) (m ((c.tc : Thread nD τ).loc main_arg4)) := by
  show StableHlo.after hostOps0 (W0 m ρ c) (Proc.devRef .tc main_v26) = _
  after_results_simp
  rw [truncf_id (φ := .f32) (ψ := .bf16)]
  unfold Cert.ReferenceIdeal.Read.val_main_v28
  rfl

/-- The bias array at the first launch is the bias vector set as one row. -/
theorem entry0_bias (c : Dev nD) :
    (V1 m ρ c main_v27 : S1x128.Idx → EReal) = shapeCast S1x128 (m ((c.tc : Thread nD τ).loc main_arg3)) shapeCasts_S128_S1x128 := by
  show StableHlo.after hostOps0 (W0 m ρ c) (Proc.devRef .tc main_v27) = _
  after_results_simp
  rfl

end Cert.KernelIdeal.Whole

end
-- ==== Proof.Layer.lean ====
/-
  The reference's two layers are the GraphSAGE combine, entry by entry.

  The reference computes each layer as (mean · Wlᵀ + bias) + features · Wrᵀ, the products as host matrix products, the
  bias set as a row and spread over the rows; the first layer is followed by the rectifier.  At entry (p, q):

      (Σ_k mean(p, k) · Wlᵀ(k, q) + bias(q)) + Σ_k features(p, k) · Wrᵀ(k, q),

  the combine with the bias added second — the same extended real, since addition there is commutative and
  associative.  The combine's bias operand is the bias vector set as one row by a reshape, read at (0, q): bias(q).
-/
import proofs.«131367_j20701742366801_1_alg».proof.Proof.Gen.ReferenceIdeal.Read
import proofs.«131367_j20701742366801_1_alg».proof.Proof.Spec
import Idealize.ShloMosaic.Lib.ValueLayout

noncomputable section

namespace Cert.ReferenceIdeal.Layers

open Cert.ReferenceIdeal Cert.ReferenceIdeal.Gen Cert.ReferenceIdeal.Read
open Idealize.ShloMosaic Idealize.ShloMosaic.ValueIdx

variable (x0 : (⟨S100000x7, .f32⟩ : BufTy).Contents (Elt Ideal)) (x1 : (⟨S2x1600000, .i32⟩ : BufTy).Contents (Elt Ideal))
  (x2 : (⟨S128x7, .f32⟩ : BufTy).Contents (Elt Ideal)) (x3 : (⟨S128, .f32⟩ : BufTy).Contents (Elt Ideal))
  (x4 : (⟨S128x7, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))

/-- The first layer: the rectified combine of the first neighbourhood mean, the features, the two transposed weight
    matrices and the bias row is the reference's first hidden array. -/
theorem layer0_eq (hc : (⟨1, ![128]⟩ : Shape).ShapeCasts ⟨2, ![1, 128]⟩) :
    Sage.clampedAll (n := 100000) (d := 7) (h := 128) (Ideal.ofBits .f32 0x00000000#32)
        (val_main_v22 (F := Ideal) x0 x1) x0 (val_main_v23 (F := Ideal) x2) (val_main_v28 (F := Ideal) x4)
        (shapeCast ⟨2, ![1, 128]⟩ x3 hc)
      = val_main_v31 (F := Ideal) x0 x1 x2 x3 x4 := by
  funext i
  obtain ⟨p, q, rfl⟩ : ∃ (p : Fin 100000) (q : Fin 128), i = ix2 p q := ⟨i 0, i 1, eq_ix2 i⟩
  rw [val_main_v31_apply, val_main_v30_apply, val_main_v27_apply, val_main_v24_apply, val_main_v29_apply,
    val_main_v26_apply, val_main_v25_apply, val_main_call0_v0_apply, val_main_call0_cst_apply]
  have hl : ∀ k : Fin 7, lidx_main_v24 (ix2 p q) k = ix2 p k := fun k => funext fun a => by
    match a with | ⟨0, _⟩ => rfl | ⟨1, _⟩ => rfl
  have hr : ∀ k : Fin 7, ridx_main_v24 (ix2 p q) k = ix2 k q := fun k => funext fun a => by
    match a with | ⟨0, _⟩ => rfl | ⟨1, _⟩ => rfl
  have hl' : ∀ k : Fin 7, lidx_main_v29 (ix2 p q) k = ix2 p k := fun k => funext fun a => by
    match a with | ⟨0, _⟩ => rfl | ⟨1, _⟩ => rfl
  have hr' : ∀ k : Fin 7, ridx_main_v29 (ix2 p q) k = ix2 k q := fun k => funext fun a => by
    match a with | ⟨0, _⟩ => rfl | ⟨1, _⟩ => rfl
  have hb : idx_main_v25 (idx_main_v26 (ix2 p q)) = ix1 q := funext fun a => by
    match a with | ⟨0, _⟩ => rfl
  simp only [hl, hr, hl', hr', hb]
  unfold Sage.clampedAll
  show max (Sage.combine _ _ _ _ _ p q) _ = max (_ + _ + _) _
  rw [← Sage.combine_bias_second]
  rw [shapeCast_a_1a_apply x3 hc (0 : Fin 1) q]
  rfl

/-- The second layer: the combine of the second neighbourhood mean, the first hidden array, the two transposed
    weight matrices and the bias row is the reference's result. -/
theorem layer1_eq (hc : (⟨1, ![128]⟩ : Shape).ShapeCasts ⟨2, ![1, 128]⟩) :
    Sage.combineAll (n := 100000) (d := 128) (h := 128)
        (val_main_v50 (F := Ideal) x0 x1 x2 x3 x4) (val_main_v31 (F := Ideal) x0 x1 x2 x3 x4)
        (val_main_v51 (F := Ideal) x5) (val_main_v56 (F := Ideal) x7) (shapeCast ⟨2, ![1, 128]⟩ x6 hc)
      = val_main_v58 (F := Ideal) x0 x1 x2 x3 x4 x5 x6 x7 := by
  funext i
  obtain ⟨p, q, rfl⟩ : ∃ (p : Fin 100000) (q : Fin 128), i = ix2 p q := ⟨i 0, i 1, eq_ix2 i⟩
  rw [val_main_v58_apply, val_main_v55_apply, val_main_v52_apply, val_main_v57_apply,
    val_main_v54_apply, val_main_v53_apply]
  have hl : ∀ k : Fin 128, lidx_main_v52 (ix2 p q) k = ix2 p k := fun k => funext fun a => by
    match a with | ⟨0, _⟩ => rfl | ⟨1, _⟩ => rfl
  have hr : ∀ k : Fin 128, ridx_main_v52 (ix2 p q) k = ix2 k q := fun k => funext fun a => by
    match a with | ⟨0, _⟩ => rfl | ⟨1, _⟩ => rfl
  have hl' : ∀ k : Fin 128, lidx_main_v57 (ix2 p q) k = ix2 p k := fun k => funext fun a => by
    match a with | ⟨0, _⟩ => rfl | ⟨1, _⟩ => rfl
  have hr' : ∀ k : Fin 128, ridx_main_v57 (ix2 p q) k = ix2 k q := fun k => funext fun a => by
    match a with | ⟨0, _⟩ => rfl | ⟨1, _⟩ => rfl
  have hb : idx_main_v53 (idx_main_v54 (ix2 p q)) = ix1 q := funext fun a => by
    match a with | ⟨0, _⟩ => rfl
  simp only [hl, hr, hl', hr', hb]
  unfold Sage.combineAll
  show Sage.combine _ _ _ _ _ p q = _ + _ + _
  rw [← Sage.combine_bias_second]
  rw [shapeCast_a_1a_apply x6 hc (0 : Fin 1) q]

end Cert.ReferenceIdeal.Layers

end
-- ==== Proof.KMid.lean ====
/-
  Between the two launches.

  The first launch leaves in its result array the rectified combine of its operand arrays; with the operand arrays read
  back to the arguments that is the reference's first hidden array.  The host operations between the launches gather
  and segment-sum that array exactly as the reference's second aggregation does (the in-degree is the one computed
  before the first launch: the same segment sum of ones), so the second launch finds in its mean array the reference's
  second neighbourhood mean, in its feature array the hidden array, and the second layer's transposed weights and bias
  row in the other three.
-/
import proofs.«131367_j20701742366801_1_alg».proof.Proof.KBlocks0
import proofs.«131367_j20701742366801_1_alg».proof.Proof.KHost0
import proofs.«131367_j20701742366801_1_alg».proof.Proof.Layer

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first launch's result array is the reference's first hidden array. -/
theorem hidden_eq (c : Dev nD) :
    W2 m ρ c (Proc.devRef .tc main_v30) = Cert.ReferenceIdeal.Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 5).trans ?_
  rw [final0 (V1 m ρ) c]
  unfold whole0
  rw [entry0_mean m ρ c, entry0_feat m ρ c, entry0_wl m ρ c, entry0_wr m ρ c, entry0_bias m ρ c]
  exact Cert.ReferenceIdeal.Layers.layer0_eq _ _ _ _ _ _

/-- The in-degree array, untouched by the first launch, is the segment sum of ones over the destinations. -/
theorem mid_cnt (c : Dev nD) :
    W2 m ρ c (Proc.devRef .tc main_v7) = Cert.ReferenceIdeal.Read.val_main_v17 (F := Ideal) (m ((c.tc : Thread nD τ).loc main_arg1)) := by
  rw [W2_of_ne m ρ c main_v7 (by decide)]
  show StableHlo.after hostOps0 (W0 m ρ c) (Proc.devRef .tc main_v7) = _
  after_results_simp
  unfold Cert.ReferenceIdeal.Read.val_main_v17 Cert.ReferenceIdeal.Read.val_main_v15 Cert.ReferenceIdeal.Read.val_main_cst_2 Cert.ReferenceIdeal.Read.val_main_v16 Cert.ReferenceIdeal.Read.val_main_v3 Cert.ReferenceIdeal.Read.val_main_v2 Cert.ReferenceIdeal.Read.val_main_v14 Cert.ReferenceIdeal.Read.val_main_cst_1
  rfl

/-- The source indices, untouched by the first launch. -/
theorem mid_src (c : Dev nD) :
    W2 m ρ c (Proc.devRef .tc main_v1) = Cert.ReferenceIdeal.Read.val_main_v1 (F := Ideal) (m ((c.tc : Thread nD τ).loc main_arg1)) := by
  rw [W2_of_ne m ρ c main_v1 (by decide)]
  show StableHlo.after hostOps0 (W0 m ρ c) (Proc.devRef .tc main_v1) = _
  after_results_simp
  unfold Cert.ReferenceIdeal.Read.val_main_v1 Cert.ReferenceIdeal.Read.val_main_v0
  rfl

/-- The destination indices, untouched by the first launch. -/
theorem mid_dst (c : Dev nD) :
    W2 m ρ c (Proc.devRef .tc main_v3) = Cert.ReferenceIdeal.Read.val_main_v3 (F := Ideal) (m ((c.tc : Thread nD τ).loc main_arg1)) := by
  rw [W2_of_ne m ρ c main_v3 (by decide)]
  show StableHlo.after hostOps0 (W0 m ρ c) (Proc.devRef .tc main_v3) = _
  after_results_simp
  unfold Cert.ReferenceIdeal.Read.val_main_v3 Cert.ReferenceIdeal.Read.val_main_v2
  rfl

/-- The second layer's first weight matrix is as launched when the second stretch of host operations starts. -/
theorem mid_arg5 (c : Dev nD) : W2 m ρ c (Proc.devRef .tc main_arg5) = m ((c.tc : Thread nD τ).loc main_arg5) := by
  rw [W2_of_ne m ρ c main_arg5 (by decide)]
  show StableHlo.after hostOps0 (W0 m ρ c) (Proc.devRef .tc main_arg5) = _
  after_results_simp

/-- The second layer's bias vector is as launched. -/
theorem mid_arg6 (c : Dev nD) : W2 m ρ c (Proc.devRef .tc main_arg6) = m ((c.tc : Thread nD τ).loc main_arg6) := by
  rw [W2_of_ne m ρ c main_arg6 (by decide)]
  show StableHlo.after hostOps0 (W0 m ρ c) (Proc.devRef .tc main_arg6) = _
  after_results_simp

/-- The second layer's second weight matrix is as launched. -/
theorem mid_arg7 (c : Dev nD) : W2 m ρ c (Proc.devRef .tc main_arg7) = m ((c.tc : Thread nD τ).loc main_arg7) := by
  rw [W2_of_ne m ρ c main_arg7 (by decide)]
  show StableHlo.after hostOps0 (W0 m ρ c) (Proc.devRef .tc main_arg7) = _
  after_results_simp

set_option maxHeartbeats 400000 in
/-- The mean array at the second launch is the reference's second neighbourhood mean. -/
theorem entry1_mean (c : Dev nD) :
    (V3 m ρ c main_v51 : S100000x128.Idx → EReal) = Cert.ReferenceIdeal.Read.val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W2 m ρ c) (Proc.devRef .tc main_v51) = _
  after_results_simp
  rw [truncf_id (φ := .f32) (ψ := .bf16), hidden_eq m ρ c, mid_cnt m ρ c, mid_src m ρ c, mid_dst m ρ c]
  unfold Cert.ReferenceIdeal.Read.val_main_v50 Cert.ReferenceIdeal.Read.val_main_v41 Cert.ReferenceIdeal.Read.val_main_v39 Cert.ReferenceIdeal.Read.val_main_cst_6 Cert.ReferenceIdeal.Read.val_main_v40 Cert.ReferenceIdeal.Read.val_main_v38 Cert.ReferenceIdeal.Read.val_main_v37 Cert.ReferenceIdeal.Read.val_main_v36 Cert.ReferenceIdeal.Read.val_main_v33 Cert.ReferenceIdeal.Read.val_main_v32 Cert.ReferenceIdeal.Read.val_main_c_4 Cert.ReferenceIdeal.Read.val_main_v35 Cert.ReferenceIdeal.Read.val_main_v34 Cert.ReferenceIdeal.Read.val_main_c_5 Cert.ReferenceIdeal.Read.val_main_v49 Cert.ReferenceIdeal.Read.val_main_v48 Cert.ReferenceIdeal.Read.val_main_v47 Cert.ReferenceIdeal.Read.val_main_v45 Cert.ReferenceIdeal.Read.val_main_v43 Cert.ReferenceIdeal.Read.val_main_cst_8 Cert.ReferenceIdeal.Read.val_main_v44 Cert.ReferenceIdeal.Read.val_main_v42 Cert.ReferenceIdeal.Read.val_main_cst_7 Cert.ReferenceIdeal.Read.val_main_v46 Cert.ReferenceIdeal.Read.val_main_cst_9 Cert.ReferenceIdeal.Read.val_main_v17 Cert.ReferenceIdeal.Read.val_main_v15 Cert.ReferenceIdeal.Read.val_main_cst_2 Cert.ReferenceIdeal.Read.val_main_v16 Cert.ReferenceIdeal.Read.val_main_v14 Cert.ReferenceIdeal.Read.val_main_cst_1
  rfl

/-- The feature array at the second launch is the reference's first hidden array. -/
theorem entry1_feat (c : Dev nD) :
    (V3 m ρ c main_v52 : S100000x128.Idx → EReal) = Cert.ReferenceIdeal.Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W2 m ρ c) (Proc.devRef .tc main_v52) = _
  after_results_simp
  rw [truncf_id (φ := .f32) (ψ := .bf16), hidden_eq m ρ c]

/-- The first weight array at the second launch is the second layer's first weight matrix transposed. -/
theorem entry1_wl (c : Dev nD) :
    (V3 m ρ c main_v47 : S128x128.Idx → EReal) = Cert.ReferenceIdeal.Read.val_main_v51 (F := Ideal) (m ((c.tc : Thread nD τ).loc main_arg5)) := by
  show StableHlo.after hostOps1 (W2 m ρ c) (Proc.devRef .tc main_v47) = _
  after_results_simp
  rw [truncf_id (φ := .f32) (ψ := .bf16), mid_arg5 m ρ c]
  unfold Cert.ReferenceIdeal.Read.val_main_v51
  rfl

/-- The second weight array at the second launch is the second layer's second weight matrix transposed. -/
theorem entry1_wr (c : Dev nD) :
    (V3 m ρ c main_v49 : S128x128.Idx → EReal) = Cert.ReferenceIdeal.Read.val_main_v56 (F := Ideal) (m ((c.tc : Thread nD τ).loc main_arg7)) := by
  show StableHlo.after hostOps1 (W2 m ρ c) (Proc.devRef .tc main_v49) = _
  after_results_simp
  rw [truncf_id (φ := .f32) (ψ := .bf16), mid_arg7 m ρ c]
  unfold Cert.ReferenceIdeal.Read.val_main_v56
  rfl

/-- The bias array at the second launch is the second layer's bias vector set as one row. -/
theorem entry1_bias (c : Dev nD) :
    (V3 m ρ c main_v50 : S1x128.Idx → EReal) = shapeCast S1x128 (m ((c.tc : Thread nD τ).loc main_arg6)) shapeCasts_S128_S1x128 := by
  show StableHlo.after hostOps1 (W2 m ρ c) (Proc.devRef .tc main_v50) = _
  after_results_simp
  rw [mid_arg6 m ρ c]
  rfl

end Cert.KernelIdeal.Whole

end
-- ==== Proof.KResult.lean ====
/-
  The idealized kernel's result.

  The second launch leaves in its result array the combine of its operand arrays; with those read back — the
  reference's second neighbourhood mean, its first hidden array, the second layer's transposed weights and bias row —
  that is the reference's result array, as a function of the eight arguments.  The kernel's run, restated with that
  function in place of the last boundary's contents.
-/
import proofs.«131367_j20701742366801_1_alg».proof.Proof.KRun
import proofs.«131367_j20701742366801_1_alg».proof.Proof.KBlocks1
import proofs.«131367_j20701742366801_1_alg».proof.Proof.KMid

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The second launch's result array is the reference's result, as a function of the arguments. -/
theorem result_eq (c : Dev nD) :
    W4 m ρ c (Proc.devRef .tc main_v53) = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 5).trans ?_
  rw [final1 (V3 m ρ) c]
  unfold whole1
  rw [entry1_mean m ρ c, entry1_feat m ρ c, entry1_wl m ρ c, entry1_wr m ρ c, entry1_bias m ρ c]
  exact Cert.ReferenceIdeal.Layers.layer1_eq _ _ _ _ _ _ _ _ _

/-- Every weakly fair execution of the idealized kernel terminates, nothing faulting, with the result buffer at the
    reference's result function of the arguments and the arguments as launched. -/
theorem run : θ_run defs (onTc (τ := τ) (main (F := Ideal))) ⟨m, fun _ => 0, ρ⟩ (fun r => ∀ c : Dev nD,
      r.2.mem ((c.tc : Thread nD τ).loc main_v53) = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run_named m ρ)

end Cert.KernelIdeal.Whole

end
-- ==== Proof.lean ====
/-
  A two-layer GraphSAGE encoder: a device kernel for each layer's combine against the plain host reference, equal over
  the extended reals.

  Both programs compute, per layer, the mean of the source rows over each destination's incoming edges (a gather, a
  segment sum, a division by the clamped in-degree: host operations, the same in both programs) and then the combine

      mean · Wlᵀ + features · Wrᵀ + bias      (first layer: rectified).

  The kernel computes the combine on the device, 2000 rows at a time, from operands narrowed to a shorter float format
  (the identity over the extended reals), as  (mean · Wlᵀ + features · Wrᵀ) + bias;  the reference on the host as
  (mean · Wlᵀ + bias) + features · Wrᵀ.  The two agree entry by entry because addition of extended reals is commutative
  and associative; no finiteness is needed.  The 50 row blocks tile the 100000 rows, so each launch's result array is
  the combine at every entry; the first layer's array feeds the second layer's aggregation in both programs.

  The three frames are the generated ones (the reference's: its generated run with the result dropped); the ideal pass
  rewrote nothing, so the kernel's idealization is its own text.
-/
import proofs.«131367_j20701742366801_1_alg».proof.Defs
import proofs.«131367_j20701742366801_1_alg».proof.Proof.Gen.Kernel
import proofs.«131367_j20701742366801_1_alg».proof.Proof.Gen.Kernel.Skeleton
import proofs.«131367_j20701742366801_1_alg».proof.Proof.Gen.Kernel.Launch
import proofs.«131367_j20701742366801_1_alg».proof.Proof.Gen.Kernel.Points
import proofs.«131367_j20701742366801_1_alg».proof.Proof.Gen.Kernel.Frame
import proofs.«131367_j20701742366801_1_alg».proof.Proof.Gen.KernelIdeal
import proofs.«131367_j20701742366801_1_alg».proof.Proof.Gen.KernelIdeal.Skeleton
import proofs.«131367_j20701742366801_1_alg».proof.Proof.Gen.KernelIdeal.Launch
import proofs.«131367_j20701742366801_1_alg».proof.Proof.Gen.KernelIdeal.Points
import proofs.«131367_j20701742366801_1_alg».proof.Proof.Gen.KernelIdeal.Frame
import proofs.«131367_j20701742366801_1_alg».proof.Proof.Gen.ReferenceIdeal
import proofs.«131367_j20701742366801_1_alg».proof.Proof.Gen.Pre_finite_inputs
import proofs.«131367_j20701742366801_1_alg».proof.Proof.Gen.ReferenceIdeal.Run
import proofs.«131367_j20701742366801_1_alg».proof.Proof.Gen.ReferenceIdeal.Read
import proofs.«131367_j20701742366801_1_alg».proof.Proof.KResult
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the same result array: the reference's
    result function of the arguments. -/
theorem algebraic : Cert.algebraic_KernelIdeal_ReferenceIdeal := by
  intro m ρ m' ρ' _ hagree
  refine ⟨fun c => Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq]
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
